-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000x32 : Shape := ⟨2, ![1600000, 32]⟩
abbrev S1600000 : Shape := ⟨1, ![1600000]⟩
abbrev S160x128 : Shape := ⟨2, ![160, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg6 : FVec F S128x4 .f32) (main_arg7 : FVec F S4 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x4 .f32 := Host.absf main_arg6
  let main_cst_6 : FVec F S_ .f32 := constant S_ .f32 0x7F800000#32
  let main_v20 : FVec F S128x4 .f32 := broadcastInDim S128x4 ![] bcast_S_S128x4 main_cst_6
  let main_v21 : IVec S128x4 1 := cmpf .olt main_v19 main_v20
  let main_c_7 : IVec S_ 1 := constantI S_ 1 1#1
  let main_v22 : IVec S_ 1 := (fun x v => Host.reduce IntOp.andi x v reducesTo_S128x4_S_d0_1 h_S_) main_v21 main_c_7
  let main_v23 : IVec S_ 1 := andi main_v18 main_v22
  let main_v24 : FVec F S4 .f32 := Host.absf main_arg7
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  main_v28

def fn {F : FTy → Type} [FloatOps F] (main_arg0 : FVec F S50000x64 .f32) (main_arg1 : FVec F S1600000x32 .f32) (main_arg2 : IVec S1600000 32) (main_arg3 : IVec S1600000 32) (main_arg4 : FVec F S160x128 .f32) (main_arg5 : FVec F S128 .f32) (main_arg6 : FVec F S128x4 .f32) (main_arg7 : FVec F S4 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S160x128 .f32 := Host.absf main_arg4
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x64 : Shape := ⟨2, ![50000, 64]⟩
abbrev S1600000x32 : Shape := ⟨2, ![1600000, 32]⟩
abbrev S1600000 : Shape := ⟨1, ![1600000]⟩
abbrev S160x128 : Shape := ⟨2, ![160, 128]⟩
abbrev S128 : Shape := ⟨1, ![128]⟩
abbrev S128x4 : Shape := ⟨2, ![128, 4]⟩
abbrev S4 : Shape := ⟨1, ![4]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1600000x128 : Shape := ⟨2, ![1600000, 128]⟩
abbrev S128x128 : Shape := ⟨2, ![128, 128]⟩
abbrev S32x128 : Shape := ⟨2, ![32, 128]⟩
abbrev S1600000x4 : Shape := ⟨2, ![1600000, 4]⟩
abbrev S8000x128 : Shape := ⟨2, ![8000, 128]⟩
abbrev S8000x32 : Shape := ⟨2, ![8000, 32]⟩
abbrev S8000x4 : Shape := ⟨2, ![8000, 4]⟩
abbrev S1x128 : Shape := ⟨2, ![1, 128]⟩
abbrev S1x4 : Shape := ⟨2, ![1, 4]⟩

abbrev nBuf : Space → Nat
  | .hbm => 58
  | .vmem => 11
  | .smem => 0
  | _ => 0

abbrev bufTy : (tb : Table) → Fin (tcTables nBuf tb) → BufTy
  | .hbm, ⟨0, _⟩ => ⟨S50000x64, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S160x128, .f32⟩
  | .hbm, ⟨5, _⟩ => ⟨S128, .f32⟩
  | .hbm, ⟨6, _⟩ => ⟨S128x4, .f32⟩
  | .hbm, ⟨7, _⟩ => ⟨S4, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1, .i32⟩
  | .hbm, ⟨17, _⟩ => ⟨S_, .i32⟩
  | .hbm, ⟨18, _⟩ => ⟨S1600000x1, .i32⟩
  | .hbm, ⟨19, _⟩ => ⟨S1600000x1, .i1⟩
  | .hbm, ⟨20, _⟩ => ⟨S1x1, .i32⟩
  | .hbm, ⟨21, _⟩ => ⟨S1600000x1, .i32⟩
  | .hbm, ⟨22, _⟩ => ⟨S1600000x1, .i1⟩
  | .hbm, ⟨23, _⟩ => ⟨S1600000x1, .i1⟩
  | .hbm, ⟨24, _⟩ => ⟨S_, .i1⟩
  | .hbm, ⟨25, _⟩ => ⟨S1600000, .i1⟩
  | .hbm, ⟨26, _⟩ => ⟨S1600000x64, .f32⟩
  | .hbm, ⟨27, _⟩ => ⟨S1600000x64, .i1⟩
  | .hbm, ⟨28, _⟩ => ⟨S_, .f32⟩
  | .hbm, ⟨29, _⟩ => ⟨S1600000x64, .f32⟩
  | .hbm, ⟨30, _⟩ => ⟨S1600000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1, .i32⟩
  | .hbm, ⟨40, _⟩ => ⟨S_, .i32⟩
  | .hbm, ⟨41, _⟩ => ⟨S1600000x1, .i32⟩
  | .hbm, ⟨42, _⟩ => ⟨S1600000x1, .i1⟩
  | .hbm, ⟨43, _⟩ => ⟨S1x1, .i32⟩
  | .hbm, ⟨44, _⟩ => ⟨S1600000x1, .i32⟩
  | .hbm, ⟨45, _⟩ => ⟨S1600000x1, .i1⟩
  | .hbm, ⟨46, _⟩ => ⟨S1600000x1, .i1⟩
  | .hbm, ⟨47, _⟩ => ⟨S_, .i1⟩
  | .hbm, ⟨48, _⟩ => ⟨S1600000, .i1⟩
  | .hbm, ⟨49, _⟩ => ⟨S1600000x64, .f32⟩
  | .hbm, ⟨50, _⟩ => ⟨S1600000x64, .i1⟩
  | .hbm, ⟨51, _⟩ => ⟨S_, .f32⟩
  | .hbm, ⟨52, _⟩ => ⟨S1600000x64, .f32⟩
  | .hbm, ⟨53, _⟩ => ⟨S1600000x64, .f32⟩
  | .hbm, ⟨54, _⟩ => ⟨S1600000x128, .f32⟩
  | .hbm, ⟨55, _⟩ => ⟨S128x128, .f32⟩
  | .hbm, ⟨56, _⟩ => ⟨S32x128, .f32⟩
  | .hbm, ⟨57, _⟩ => ⟨S1600000x4, .f32⟩
  | .local _ .vmem, ⟨0, _⟩ => ⟨S8000x128, .f32⟩
  | .local _ .vmem, ⟨1, _⟩ => ⟨S8000x128, .f32⟩
  | .local _ .vmem, ⟨2, _⟩ => ⟨S8000x32, .f32⟩
  | .local _ .vmem, ⟨3, _⟩ => ⟨S8000x32, .f32⟩
  | .local _ .vmem, ⟨4, _⟩ => ⟨S128x128, .f32⟩
  | .local _ .vmem, ⟨5, _⟩ => ⟨S32x128, .f32⟩
  | .local _ .vmem, ⟨6, _⟩ => ⟨S128, .f32⟩
  | .local _ .vmem, ⟨7, _⟩ => ⟨S128x4, .f32⟩
  | .local _ .vmem, ⟨8, _⟩ => ⟨S4, .f32⟩
  | .local _ .vmem, ⟨9, _⟩ => ⟨S8000x4, .f32⟩
  | .local _ .vmem, ⟨10, _⟩ => ⟨S8000x4, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  concatenates_S1600000x64_S1600000x64_S1600000x128_d1 : Shape.Concatenates [S1600000x64, S1600000x64] S1600000x128 1
  slices_S160x128_S128x128_0_0 : S160x128.Slices ![0, 0] S128x128
  slices_S160x128_S32x128_128_0 : S160x128.Slices ![128, 0] S32x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S8000x32_S8000x32_0_0 : ∀ a, (![0, 0] : Fin 2 → Nat) a + S8000x32.size a ≤ S8000x32.size a
  h_S8000x32 : 0 < S8000x32.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x4_S128x4_0_0 : ∀ a, (![0, 0] : Fin 2 → Nat) a + S128x4.size a ≤ S128x4.size a
  h_S128x4 : 0 < S128x4.numel
  inb_S4_S4_0 : ∀ a, (![0] : Fin 1 → Nat) a + S4.size a ≤ S4.size a
  h_S4 : 0 < S4.numel
  shapeCasts_S4_S1x4 : S4.ShapeCasts S1x4
  broadcasts_S1x4_S8000x4 : S1x4.Broadcasts S8000x4
  inb_S8000x4_S8000x4_0_0 : ∀ a, (![0, 0] : Fin 2 → Nat) a + S8000x4.size a ≤ S8000x4.size a
  h_S8000x4 : 0 < S8000x4.numel
  gather_S50000x64_S1600000x1_S1600000x64_1_0_n_n_0_1_164_wf : GatherDims.WF S50000x64 S1600000x1 S1600000x64 [1] [0] [] [0] [] 1 ![1, 64]
  dot_S8000x128_S128x128_S8000x128_1_0_0_1_n_n_wf : DotDims.WF S8000x128 S128x128 S8000x128 [1] [0] [0] [1] [] []
  dot_S8000x32_S32x128_S8000x128_1_0_0_1_n_n_wf : DotDims.WF S8000x32 S32x128 S8000x128 [1] [0] [0] [1] [] []
  dot_S8000x128_S128x4_S8000x4_1_0_0_1_n_n_wf : DotDims.WF S8000x128 S128x4 S8000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .f32 = 32 ∨ (Rect.block (s := S1600000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1600000x32.size a
  hwx0_1 : ∀ i : grid0.Coords, EltTy.bits .f32 = 32 ∨ (Rect.block (s := S1600000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x4.size a ≤ S128x4.size a
  hwx0_5 : ∀ i : grid0.Coords, EltTy.bits .f32 = 32 ∨ (Rect.block (s := S128x4) S128x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4.size a ≤ S4.size a
  hwx0_6 : ∀ i : grid0.Coords, EltTy.bits .f32 = 32 ∨ (Rect.block (s := S4) S4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x4.size a ≤ S1600000x4.size a
  hwx0_7 : ∀ i : grid0.Coords, EltTy.bits .f32 = 32 ∨ (Rect.block (s := S1600000x4) S8000x4.size (cc0_transform_7 i) (hinb0_7 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x128_S128x4_S8000x4_1_0_0_1_n_n : DotDims S8000x128 S128x4 S8000x4 where
  lhsContracting := [1]
  rhsContracting := [0]
  lhsNonContracting := [0]
  rhsNonContracting := [1]
  lhsBatch := []
  rhsBatch := []
  wf := dot_S8000x128_S128x4_S8000x4_1_0_0_1_n_n_wf

abbrev win0_0 : Pipeline.Window sig grid0 :=
  Pipeline.Window.ofSpec (Memref.whole main_v2) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S8000x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S1600000x32 : Shape := ⟨2, ![1600000, 32]⟩
abbrev S1600000 : Shape := ⟨1, ![1600000]⟩
abbrev S160x128 : Shape := ⟨2, ![160, 128]⟩
abbrev S128 : Shape := ⟨1, ![128]⟩
abbrev S128x4 : Shape := ⟨2, ![128, 4]⟩
abbrev S4 : Shape := ⟨1, ![4]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S64x128 : Shape := ⟨2, ![64, 128]⟩
abbrev S32x128 : Shape := ⟨2, ![32, 128]⟩
abbrev S1600000x128 : Shape := ⟨2, ![1600000, 128]⟩
abbrev S1x128 : Shape := ⟨2, ![1, 128]⟩
abbrev S1600000x4 : Shape := ⟨2, ![1600000, 4]⟩
abbrev S1x4 : Shape := ⟨2, ![1, 4]⟩

abbrev nBuf : Space → Nat
  | .hbm => 72
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S160x128, .f32⟩
  | .hbm, ⟨5, _⟩ => ⟨S128, .f32⟩
  | .hbm, ⟨6, _⟩ => ⟨S128x4, .f32⟩
  | .hbm, ⟨7, _⟩ => ⟨S4, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1, .i32⟩
  | .hbm, ⟨17, _⟩ => ⟨S_, .i32⟩
  | .hbm, ⟨18, _⟩ => ⟨S1600000x1, .i32⟩
  | .hbm, ⟨19, _⟩ => ⟨S1600000x1, .i1⟩
  | .hbm, ⟨20, _⟩ => ⟨S1x1, .i32⟩
  | .hbm, ⟨21, _⟩ => ⟨S1600000x1, .i32⟩
  | .hbm, ⟨22, _⟩ => ⟨S1600000x1, .i1⟩
  | .hbm, ⟨23, _⟩ => ⟨S1600000x1, .i1⟩
  | .hbm, ⟨24, _⟩ => ⟨S_, .i1⟩
  | .hbm, ⟨25, _⟩ => ⟨S1600000, .i1⟩
  | .hbm, ⟨26, _⟩ => ⟨S1600000x64, .f32⟩
  | .hbm, ⟨27, _⟩ => ⟨S1600000x64, .i1⟩
  | .hbm, ⟨28, _⟩ => ⟨S_, .f32⟩
  | .hbm, ⟨29, _⟩ => ⟨S1600000x64, .f32⟩
  | .hbm, ⟨30, _⟩ => ⟨S1600000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1, .i32⟩
  | .hbm, ⟨40, _⟩ => ⟨S_, .i32⟩
  | .hbm, ⟨41, _⟩ => ⟨S1600000x1, .i32⟩
  | .hbm, ⟨42, _⟩ => ⟨S1600000x1, .i1⟩
  | .hbm, ⟨43, _⟩ => ⟨S1x1, .i32⟩
  | .hbm, ⟨44, _⟩ => ⟨S1600000x1, .i32⟩
  | .hbm, ⟨45, _⟩ => ⟨S1600000x1, .i1⟩
  | .hbm, ⟨46, _⟩ => ⟨S1600000x1, .i1⟩
  | .hbm, ⟨47, _⟩ => ⟨S_, .i1⟩
  | .hbm, ⟨48, _⟩ => ⟨S1600000, .i1⟩
  | .hbm, ⟨49, _⟩ => ⟨S1600000x64, .f32⟩
  | .hbm, ⟨50, _⟩ => ⟨S1600000x64, .i1⟩
  | .hbm, ⟨51, _⟩ => ⟨S_, .f32⟩
  | .hbm, ⟨52, _⟩ => ⟨S1600000x64, .f32⟩
  | .hbm, ⟨53, _⟩ => ⟨S1600000x64, .f32⟩
  | .hbm, ⟨54, _⟩ => ⟨S64x128, .f32⟩
  | .hbm, ⟨55, _⟩ => ⟨S64x128, .f32⟩
  | .hbm, ⟨56, _⟩ => ⟨S32x128, .f32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S1600000x128, .f32⟩
  | .hbm, ⟨61, _⟩ => ⟨S1600000x128, .f32⟩
  | .hbm, ⟨62, _⟩ => ⟨S1x128, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S1600000x128, .f32⟩
  | .hbm, ⟨67, _⟩ => ⟨S1600000x128, .f32⟩
  | .hbm, ⟨68, _⟩ => ⟨S1600000x4, .f32⟩
  | .hbm, ⟨69, _⟩ => ⟨S1x4, .f32⟩
  | .hbm, ⟨70, _⟩ => ⟨S1600000x4, .f32⟩
  | .hbm, ⟨71, _⟩ => ⟨S1600000x4, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_call2_cst : Ref sig .tc := ⟨.hbm, 65, rfl⟩
abbrev main_call2_v0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  slices_S160x128_S64x128_0_0 : S160x128.Slices ![0, 0] S64x128
  slices_S160x128_S64x128_64_0 : S160x128.Slices ![64, 0] S64x128
  slices_S160x128_S32x128_128_0 : S160x128.Slices ![128, 0] S32x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S4_S1x4_1 : S4.BroadcastsInDim S1x4 (![1] : Fin 1 → Fin S1x4.rank)
  bcast_S1x4_S1600000x4_0_1 : S1x4.BroadcastsInDim S1600000x4 (![0, 1] : Fin 2 → Fin S1600000x4.rank)
  gather_S50000x64_S1600000x1_S1600000x64_1_0_n_n_0_1_164_wf : GatherDims.WF S50000x64 S1600000x1 S1600000x64 [1] [0] [] [0] [] 1 ![1, 64]
  dot_S1600000x64_S64x128_S1600000x128_1_0_0_1_n_n_wf : DotDims.WF S1600000x64 S64x128 S1600000x128 [1] [0] [0] [1] [] []
  dot_S1600000x32_S32x128_S1600000x128_1_0_0_1_n_n_wf : DotDims.WF S1600000x32 S32x128 S1600000x128 [1] [0] [0] [1] [] []
  dot_S1600000x128_S128x4_S1600000x4_1_0_0_1_n_n_wf : DotDims.WF S1600000x128 S128x4 S1600000x4 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def dot_S1600000x32_S32x128_S1600000x128_1_0_0_1_n_n : DotDims S1600000x32 S32x128 S1600000x128 where
  lhsContracting := [1]
  rhsContracting := [0]
  lhsNonContracting := [0]
  rhsNonContracting := [1]
  lhsBatch := []
  rhsBatch := []
  wf := dot_S1600000x32_S32x128_S1600000x128_1_0_0_1_n_n_wf
def dot_S1600000x128_S128x4_S1600000x4_1_0_0_1_n_n : DotDims S1600000x128 S128x4 S1600000x4 where
  lhsContracting := [1]
  rhsContracting := [0]
  lhsNonContracting := [0]
  rhsNonContracting := [1]
  lhsBatch := []
  rhsBatch := []
  wf := dot_S1600000x128_S128x4_S1600000x4_1_0_0_1_n_n_wf

class Facts : Prop extends Facts₀ where

variable [Facts]
-- ==== Proof.KerHost.lean ====
/-
  What the kernel's region finds in the arrays its windows stage, as functions of the argument arrays.

  Before the region the host gathers rows of the node table twice (`take`: jnp.take along axis 0 — a negative index
  is shifted up by the number of rows, and an index still out of range selects the fill value instead of a row),
  lays the two gathered arrays side by side, and cuts the first-layer matrix into its rows 0–127 and 128–159.
-/
import proofs.«129104_j29678224016207_2_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]

/-- The row index jnp.take uses: a negative index shifted up by the table's 50000 rows, set as a column. -/
def takeIdx (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 50000#32))) i)

/-- jnp.take of rows of the node table: the gathered row where the shifted index lies in 0 … 49999, the fill
    value elsewhere. -/
def take (x : FVec F S50000x64 .f32) (i : IVec S1600000 32) : FVec F S1600000x64 .f32 :=
  select
    (broadcastInDim S1600000x64 ![0] bcast_S1600000_S1600000x64_0
      (Host.reduce IntOp.andi
        (andi (cmpi .sge (takeIdx i) (broadcastInDim S1600000x1 ![] bcast_S_S1600000x1 (constantI S_ 32 0#32)))
          (cmpi .sle (takeIdx i) (broadcastInDim S1600000x1 ![0, 1] bcast_S1x1_S1600000x1_0_1
            (broadcastInDim S1x1 ![1] bcast_S1_S1x1_1 (constantI S1 32 49999#32)))))
        (constantI S_ 1 1#1) reducesTo_S1600000x1_S1600000_d1 h_S_))
    (Host.gather gather_S50000x64_S1600000x1_S1600000x64_1_0_n_n_0_1_164 x (takeIdx i))
    (broadcastInDim S1600000x64 ![] bcast_S_S1600000x64 (constant S_ .f32 0x7FC00000#32))

/-- Running two lists of host operations one after the other is running their concatenation. -/
theorem after_append (l₁ l₂ : List (HloOp τ sig (Elt F))) (X : Valuation τ sig (Elt F)) :
    after (l₁ ++ l₂) X = after l₂ (after l₁ X) := by
  induction l₁ generalizing X with
  | nil => rfl
  | cons op l ih => exact ih (op.result X)

/-- The last three host operations before the region, over any earlier contents X: the two gathered arrays laid
    side by side, and the two row blocks of the first-layer matrix. -/
theorem tail_v2 (X : Valuation τ sig (Elt F)) :
    (after hostOps0_2 X (main_v2 : DevRef τ sig) : S1600000x128.Idx → F .f32)
      = concatenate S1600000x128 1
          [⟨S1600000x64, X (main_v0 : DevRef τ sig)⟩, ⟨S1600000x64, X (main_v1 : DevRef τ sig)⟩]
          concatenates_S1600000x64_S1600000x64_S1600000x128_d1 := by
  after_results_simp

theorem tail_v3 (X : Valuation τ sig (Elt F)) :
    (after hostOps0_2 X (main_v3 : DevRef τ sig) : S128x128.Idx → F .f32)
      = extractStridedSlice S128x128 ![0, 0] (X (main_arg4 : DevRef τ sig)) slices_S160x128_S128x128_0_0 := by
  after_results_simp

theorem tail_v4 (X : Valuation τ sig (Elt F)) :
    (after hostOps0_2 X (main_v4 : DevRef τ sig) : S32x128.Idx → F .f32)
      = extractStridedSlice S32x128 ![128, 0] (X (main_arg4 : DevRef τ sig)) slices_S160x128_S32x128_128_0 := by
  after_results_simp

variable (m : (ℓ : Loc nD τ sig) → Buf (Elt F) ℓ)

/-- Core c's buffers after the two gathers, before the last three host operations. -/
abbrev gathered (c : Dev nD) : Valuation τ sig (Elt F) :=
  after (hostOps0 ++ hostOps0_1) (fun b => m (c, b))

/-- The region-entry contents are the last three operations over the gathered contents. -/
theorem V_eq (c : Dev nD) (b : Ref sig .tc) : V m c b = after hostOps0_2 (gathered m c) (b : DevRef τ sig) := by
  dsimp only [V, gathered]
  rw [← after_append]
  simp only [List.flatten_cons, List.flatten_nil, List.append_nil, List.append_assoc]

/-- After the two gathers, buffer %0 holds jnp.take of the node table at the source indices, -/
theorem gathered_v0 (c : Dev nD) :
    (gathered m c (main_v0 : DevRef τ sig) : S1600000x64.Idx → F .f32)
      = take (m ((c : Thread nD τ).loc main_arg0)) (m ((c : Thread nD τ).loc main_arg2)) := by
  dsimp only [gathered]
  simp only [hostOps0, hostOps0_1, List.cons_append, List.nil_append]
  simp only [TRef.nullary, TRef.unary, TRef.binary, TRef.ternary, TRef.toBuf, TRef.ofBuf, cast_eq]
  after_results_simp
  rfl

/-- buffer %1 holds jnp.take of the node table at the destination indices, -/
theorem gathered_v1 (c : Dev nD) :
    (gathered m c (main_v1 : DevRef τ sig) : S1600000x64.Idx → F .f32)
      = take (m ((c : Thread nD τ).loc main_arg0)) (m ((c : Thread nD τ).loc main_arg3)) := by
  dsimp only [gathered]
  simp only [hostOps0, hostOps0_1, List.cons_append, List.nil_append]
  simp only [TRef.nullary, TRef.unary, TRef.binary, TRef.ternary, TRef.toBuf, TRef.ofBuf, cast_eq]
  after_results_simp
  rfl

/-- and the first-layer matrix is as launched. -/
theorem gathered_arg4 (c : Dev nD) :
    gathered m c (main_arg4 : DevRef τ sig) = m ((c : Thread nD τ).loc main_arg4) := by
  dsimp only [gathered]
  simp only [hostOps0, hostOps0_1, List.cons_append, List.nil_append]
  simp only [TRef.nullary, TRef.unary, TRef.binary, TRef.ternary, TRef.toBuf, TRef.ofBuf, cast_eq]
  after_results_simp

/-- Window 0's array: the two gathered arrays side by side. -/
theorem V_main_v2 (c : Dev nD) :
    (V m c main_v2 : S1600000x128.Idx → F .f32)
      = concatenate S1600000x128 1
          [⟨S1600000x64, take (m ((c : Thread nD τ).loc main_arg0)) (m ((c : Thread nD τ).loc main_arg2))⟩,
           ⟨S1600000x64, take (m ((c : Thread nD τ).loc main_arg0)) (m ((c : Thread nD τ).loc main_arg3))⟩]
          concatenates_S1600000x64_S1600000x64_S1600000x128_d1 := by
  rw [V_eq, tail_v2, gathered_v0, gathered_v1]

/-- Window 2's array: rows 0–127 of the first-layer matrix. -/
theorem V_main_v3 (c : Dev nD) :
    (V m c main_v3 : S128x128.Idx → F .f32)
      = extractStridedSlice S128x128 ![0, 0] (m ((c : Thread nD τ).loc main_arg4)) slices_S160x128_S128x128_0_0 := by
  rw [V_eq, tail_v3, gathered_arg4]

/-- Window 3's array: rows 128–159 of the first-layer matrix. -/
theorem V_main_v4 (c : Dev nD) :
    (V m c main_v4 : S32x128.Idx → F .f32)
      = extractStridedSlice S32x128 ![128, 0] (m ((c : Thread nD τ).loc main_arg4)) slices_S160x128_S32x128_128_0 := by
  rw [V_eq, tail_v4, gathered_arg4]

end Cert.KernelIdeal.HostSide

end
-- ==== Proof.EdgeMlp.lean ====
/-
  The two-layer edge network as ONE function of its arrays, entry by entry, over the extended reals.

  For edge e — with the gathered source row hu(e, ·) and destination row hv(e, ·) (64 entries each), the edge's own
  features ef(e, ·) (32 entries), a 160 × 128 first-layer matrix W1 whose rows 0–63 meet hu, rows 64–127 meet hv and
  rows 128–159 meet ef, a bias b1, a 128 × 4 second-layer matrix W2 and a bias b2 —
      hidden(e, j) = ((Σ_{k<64} hu(e,k)·W1(k,j) + Σ_{k<64} hv(e,k)·W1(64+k,j)) + Σ_{k<32} ef(e,k)·W1(128+k,j)) + b1(j)
      out(e, o)    = Σ_{j<128} max(hidden(e,j), 0)·W2(j,o) + b2(o).
  The same hidden value is reached by laying hu(e, ·) and hv(e, ·) side by side as one row of 128 entries (`cat`) and
  contracting it with rows 0–127 of W1 at once (`hiddenCat`): a sum of 128 terms is the sum of its first 64 and its
  last 64 (`sum_halves`). That holds in every commutative additive monoid, so on the extended reals with no
  finiteness assumption: nothing is distributed, cancelled or moved across a sum.
-/
import Idealize.ShloMosaic.Lib.ValueIdx
import Idealize.ShloMosaic.PureOps.Ideal

noncomputable section

namespace Cert.EdgeMlp

open Idealize.ShloMosaic Idealize.ShloMosaic.ValueIdx

/-- A sum over 128 terms is the sum over the first 64 plus the sum over the last 64. -/
theorem sum_halves {M : Type} [AddCommMonoid M] (f : Fin 128 → M) :
    ∑ k : Fin 128, f k
      = (∑ k : Fin 64, f ⟨k.val, by have := k.isLt; omega⟩) + ∑ k : Fin 64, f ⟨64 + k.val, by have := k.isLt; omega⟩ :=
  Fin.sum_univ_add (a := 64) (b := 64) f

variable (hu hv : FVec Ideal ⟨2, ![1600000, 64]⟩ .f32) (ef : FVec Ideal ⟨2, ![1600000, 32]⟩ .f32)
  (W1 : FVec Ideal ⟨2, ![160, 128]⟩ .f32) (b1 : FVec Ideal ⟨1, ![128]⟩ .f32)
  (W2 : FVec Ideal ⟨2, ![128, 4]⟩ .f32) (b2 : FVec Ideal ⟨1, ![4]⟩ .f32)

/-- The float zero, as both programs spell it. -/
abbrev zero : EReal := Ideal.ofBits .f32 0x00000000#32

/-- Edge e's two gathered rows side by side: entry k < 64 is the source row's, entry k ≥ 64 the destination row's
    at k − 64. -/
def cat (e : Fin 1600000) (k : Fin 128) : EReal :=
  if h : k.val < 64 then hu (ix2 e ⟨k.val, h⟩) else hv (ix2 e ⟨k.val - 64, by have := k.isLt; omega⟩)

/-- The hidden layer before the rectifier, the three row blocks of W1 contracted one by one. -/
def hidden (e : Fin 1600000) (j : Fin 128) : EReal :=
  (((∑ k : Fin 64, hu (ix2 e k) * W1 (ix2 ⟨k.val, by have := k.isLt; omega⟩ j))
      + ∑ k : Fin 64, hv (ix2 e k) * W1 (ix2 ⟨64 + k.val, by have := k.isLt; omega⟩ j))
    + ∑ k : Fin 32, ef (ix2 e k) * W1 (ix2 ⟨128 + k.val, by have := k.isLt; omega⟩ j))
  + b1 (ix1 j)

/-- The hidden layer before the rectifier, the side-by-side row contracted with rows 0–127 of W1 at once. -/
def hiddenCat (e : Fin 1600000) (j : Fin 128) : EReal :=
  ((∑ k : Fin 128, cat hu hv e k * W1 (ix2 ⟨k.val, by have := k.isLt; omega⟩ j))
    + ∑ k : Fin 32, ef (ix2 e k) * W1 (ix2 ⟨128 + k.val, by have := k.isLt; omega⟩ j))
  + b1 (ix1 j)

/-- The two spellings of the hidden layer agree: the sum over the side-by-side row splits at entry 64 into the
    source row's sum and the destination row's. -/
theorem hiddenCat_eq (e : Fin 1600000) (j : Fin 128) : hiddenCat hu hv ef W1 b1 e j = hidden hu hv ef W1 b1 e j := by
  unfold hiddenCat hidden
  rw [sum_halves]
  have h1 : ∀ k : Fin 64, cat hu hv e ⟨k.val, by have := k.isLt; omega⟩ = hu (ix2 e k) := fun k => by
    unfold cat
    rw [dif_pos (show (⟨k.val, by have := k.isLt; omega⟩ : Fin 128).val < 64 from k.isLt)]
  have h2 : ∀ k : Fin 64, cat hu hv e ⟨64 + k.val, by have := k.isLt; omega⟩ = hv (ix2 e k) := fun k => by
    unfold cat
    rw [dif_neg (show ¬ (⟨64 + k.val, by have := k.isLt; omega⟩ : Fin 128).val < 64 from by show ¬ (64 + k.val < 64); omega)]
    exact congrArg (fun q : Fin 64 => hv (ix2 e q)) (Fin.ext (by show 64 + k.val - 64 = k.val; omega))
  simp only [h1, h2]

/-- The network's output at edge e, column o. -/
def out (e : Fin 1600000) (o : Fin 4) : EReal :=
  (∑ j : Fin 128, max (hidden hu hv ef W1 b1 e j) zero * W2 (ix2 j o)) + b2 (ix1 o)

/-- The same through the side-by-side spelling of the hidden layer. -/
def outCat (e : Fin 1600000) (o : Fin 4) : EReal :=
  (∑ j : Fin 128, max (hiddenCat hu hv ef W1 b1 e j) zero * W2 (ix2 j o)) + b2 (ix1 o)

theorem outCat_eq (e : Fin 1600000) (o : Fin 4) : outCat hu hv ef W1 b1 W2 b2 e o = out hu hv ef W1 b1 W2 b2 e o := by
  unfold outCat out
  simp only [hiddenCat_eq]

/-- The whole result array, one function of the argument arrays. -/
def result : FVec Ideal ⟨2, ![1600000, 4]⟩ .f32 := fun i => out hu hv ef W1 b1 W2 b2 (i 0) (i 1)

end Cert.EdgeMlp

end
-- ==== Proof.KerPayload.lean ====
/-
  What the kernel's body stores, entry by entry, over the extended reals.

  At a grid point the body holds a block of 8000 side-by-side rows x0 (128 entries each), the same edges' own features
  x1 (32 entries), rows 0–127 of the first-layer matrix x2, its rows 128–159 x3, the bias x4, the second-layer matrix
  x5 and its bias x6. A change of float format is the identity on the extended reals and a product into the zero
  accumulator is the plain sum of products, so entry (r, o) of what it stores is
      Σ_{j<128} max((Σ_{k<128} x0(r,k)·x2(k,j) + Σ_{k<32} x1(r,k)·x3(k,j)) + x4(j), 0)·x5(j,o) + x6(o).
-/
import proofs.«129104_j29678224016207_2_alg».proof.Proof.Gen.KernelIdeal.Skeleton
import proofs.«129104_j29678224016207_2_alg».proof.Proof.EdgeMlp
import Idealize.ShloMosaic.Lib.StackMember
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- The product of an m × k by a k × n matrix into the zero accumulator, at entry (a, b), is the sum over the
    contracted coordinate of the products of the entries. -/
theorem matmul_plain_apply {m k n : ℕ} {φ₁ φ₂ : FTy} (d : DotDims ⟨2, ![m, k]⟩ ⟨2, ![k, n]⟩ ⟨2, ![m, n]⟩)
    (hd : d = DotDims.plain m k n) (A : FVec Ideal ⟨2, ![m, k]⟩ φ₁) (B : FVec Ideal ⟨2, ![k, n]⟩ φ₂)
    (a : Fin m) (b : Fin n) :
    matmul d none A B (constant (F := Ideal) ⟨2, ![m, n]⟩ .f32 0x00000000#32) (ix2 a b)
      = ∑ c : Fin k, A (ix2 a c) * B (ix2 c b) := by
  subst hd
  rw [matmul_zero_eq_dotGeneral]
  exact StackMember.dotGeneral_plain_apply none A B a b

/-- The three products' dimension numbers are the plain ones. -/
theorem dims1 : dot_S8000x128_S128x128_S8000x128_1_0_0_1_n_n = DotDims.plain 8000 128 128 := rfl
theorem dims2 : dot_S8000x32_S32x128_S8000x128_1_0_0_1_n_n = DotDims.plain 8000 32 128 := rfl
theorem dims3 : dot_S8000x128_S128x4_S8000x4_1_0_0_1_n_n = DotDims.plain 8000 128 4 := rfl

/-- A bias vector of length b, set as one row and spread down a rows, reads at (p, q) the vector at q. -/
theorem bias_apply {a b : ℕ} (v : FVec Ideal ⟨1, ![b]⟩ .f32) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) := by
  rw [broadcastTo_1b_ab_apply, shapeCast_a_1a_apply]

/-- The hidden block after the rectifier, as the body computes it from its loads. -/
def hiddenBlk (x0 : Vec Ideal S8000x128 .f32) (x1 : Vec Ideal S8000x32 .f32) (x2 : Vec Ideal S128x128 .f32)
    (x3 : Vec Ideal S32x128 .f32) (x4 : Vec Ideal S128 .f32) (r : Fin 8000) (j : Fin 128) : EReal :=
  max (((∑ k : Fin 128, x0 (ix2 r k) * x2 (ix2 k j)) + ∑ k : Fin 32, x1 (ix2 r k) * x3 (ix2 k j)) + x4 (ix1 j))
    EdgeMlp.zero

/-- Entry (r, o) of the body's one store. -/
theorem pay_apply (x0 : Vec Ideal S8000x128 .f32) (x1 : Vec Ideal S8000x32 .f32) (x2 : Vec Ideal S128x128 .f32)
    (x3 : Vec Ideal S32x128 .f32) (x4 : Vec Ideal S128 .f32) (x5 : Vec Ideal S128x4 .f32) (x6 : Vec Ideal S4 .f32)
    (r : Fin 8000) (o : Fin 4) :
    k0_pay1 x0 x1 x2 x3 x4 x5 x6 (ix2 r o)
      = (∑ j : Fin 128, hiddenBlk x0 x1 x2 x3 x4 r j * x5 (ix2 j o)) + x6 (ix1 o) := by
  unfold k0_pay1
  rw [addf_apply, bias_apply, matmul_plain_apply _ dims3]
  refine congrArg (· + x6 (ix1 o)) (Finset.sum_congr rfl fun j _ => ?_)
  rw [truncf_apply, truncf_apply, maximumf_apply, addf_apply, addf_apply, bias_apply,
    matmul_plain_apply _ dims1, matmul_plain_apply _ dims2]
  simp only [truncf_apply, shapeCast_self]
  rfl

end Cert.KernelIdeal.Payload

end
-- ==== Proof.KerBlocks.lean ====
/-
  From blocks to the whole array: what the kernel's result array holds after the run.

  The grid has 200 points; point t stages rows 8000·t … 8000·t + 7999 of the side-by-side gathered rows and of the
  edge features, the whole of the two row blocks of the first-layer matrix, of the bias vectors and of the
  second-layer matrix, and writes back rows 8000·t … 8000·t + 7999 of the result. Every input block read at its
  coordinates is the argument array (or the host's gathered, side-by-side array) at the matching coordinates, so what
  point t writes back is block t of ONE function of the argument arrays (`kernelOut`: the network through the
  side-by-side spelling of its hidden layer); the 200 blocks tile the result array, so the array ends holding that
  function.
-/
import proofs.«129104_j29678224016207_2_alg».proof.Proof.Gen.KernelIdeal.Value
import proofs.«129104_j29678224016207_2_alg».proof.Proof.KerHost
import proofs.«129104_j29678224016207_2_alg».proof.Proof.KerPayload
import proofs.«129104_j29678224016207_2_alg».proof.Proof.EdgeMlp
import Idealize.ShloMosaic.Lib.Pipeline.Value
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a <;> rfl

/-- The printed index maps, decided over the 200 grid points: the blocks of the gathered rows, of the edge features
    and of the result move with the point along axis 0; every other block is the whole of its array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The two gathered arrays, as the host computes them from the node table and the index arrays. -/
abbrev hu (c : Dev nD) : FVec Ideal S1600000x64 .f32 := HostSide.take (m ((c : Thread nD τ).loc main_arg0)) (m ((c : Thread nD τ).loc main_arg2))
abbrev hv (c : Dev nD) : FVec Ideal S1600000x64 .f32 := HostSide.take (m ((c : Thread nD τ).loc main_arg0)) (m ((c : Thread nD τ).loc main_arg3))

/-- What the result array ends holding: the network through the side-by-side spelling of its hidden layer. -/
def kernelOut (c : Dev nD) : S1600000x4.Idx → EReal := fun i =>
  EdgeMlp.outCat (hu m c) (hv m c) (m ((c : Thread nD τ).loc main_arg1)) (m ((c : Thread nD τ).loc main_arg4)) (m ((c : Thread nD τ).loc main_arg5)) (m ((c : Thread nD τ).loc main_arg6)) (m ((c : Thread nD τ).loc main_arg7)) (i 0) (i 1)

/-! ## Each input block read at coordinates -/

/-- Block t of the side-by-side rows: row r of the block is row 8000·t + r of the array. -/
theorem iblk0_apply (c : Dev nD) (t : Fin cfg0.N) (x : S8000x128.Idx) (k : S1600000x128.Idx)
    (hk0 : (k 0).val = 8000 * t.val + (x 0).val) (hk1 : (k 1).val = (x 1).val) :
    (iblk m c 0 t : Vec Ideal S8000x128 .f32) x = (V m c main_v2 : S1600000x128.Idx → EReal) k := by
  obtain ⟨e0, e1, -⟩ := idx_facts t
  unfold iblk
  rw [View.read_apply]
  show V m c main_v2 _ = V m c main_v2 _
  refine congrArg (V m c main_v2) ?_
  funext a
  apply Fin.ext
  match a with
  | ⟨0, _⟩ => show win0_0.index t 0 * 8000 + 1 * (x 0).val = (k 0).val; rw [e0, hk0]; omega
  | ⟨1, _⟩ => show win0_0.index t 1 * 128 + 1 * (x 1).val = (k 1).val; rw [e1, hk1]; omega

/-- Block t of the edge features: row r of the block is row 8000·t + r of the argument. -/
theorem iblk1_apply (c : Dev nD) (t : Fin cfg0.N) (x : S8000x32.Idx) (k : S1600000x32.Idx)
    (hk0 : (k 0).val = 8000 * t.val + (x 0).val) (hk1 : (k 1).val = (x 1).val) :
    (iblk m c 1 t : Vec Ideal S8000x32 .f32) x = ((m ((c : Thread nD τ).loc main_arg1)) : S1600000x32.Idx → EReal) k := by
  obtain ⟨-, -, e0, e1, -⟩ := idx_facts t
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t 0 * 8000 + 1 * (x 0).val = (k 0).val; rw [e0, hk0]; omega
  | ⟨1, _⟩ => show win0_1.index t 1 * 32 + 1 * (x 1).val = (k 1).val; rw [e1, hk1]; omega

/-- The block of rows 0–127 of the first-layer matrix is the whole of that host array. -/
theorem iblk2_apply (c : Dev nD) (t : Fin cfg0.N) (x : S128x128.Idx) :
    (iblk m c 2 t : Vec Ideal S128x128 .f32) x = (V m c main_v3 : S128x128.Idx → EReal) x := by
  obtain ⟨-, -, -, -, e0, e1, -⟩ := idx_facts t
  unfold iblk
  rw [View.read_apply]
  show V m c main_v3 _ = V m c main_v3 _
  refine congrArg (V m c main_v3) ?_
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The block of rows 128–159 of the first-layer matrix is the whole of that host array. -/
theorem iblk3_apply (c : Dev nD) (t : Fin cfg0.N) (x : S32x128.Idx) :
    (iblk m c 3 t : Vec Ideal S32x128 .f32) x = (V m c main_v4 : S32x128.Idx → EReal) x := by
  obtain ⟨-, -, -, -, -, -, e0, e1, -⟩ := idx_facts t
  unfold iblk
  rw [View.read_apply]
  show V m c main_v4 _ = V m c main_v4 _
  refine congrArg (V m c main_v4) ?_
  funext a
  apply Fin.ext
  match a with
  | ⟨0, _⟩ => show win0_3.index t 0 * 32 + 1 * (x 0).val = (x 0).val; rw [e0]; omega
  | ⟨1, _⟩ => show win0_3.index t 1 * 128 + 1 * (x 1).val = (x 1).val; rw [e1]; omega

/-- The first bias's block is the whole argument. -/
theorem iblk4_apply (c : Dev nD) (t : Fin cfg0.N) (x : S128.Idx) :
    (iblk m c 4 t : Vec Ideal S128 .f32) x = ((m ((c : Thread nD τ).loc main_arg5)) : S128.Idx → EReal) x := by
  obtain ⟨-, -, -, -, -, -, -, -, e0, -⟩ := idx_facts t
  unfold iblk
  rw [View.read_apply]
  show V m c main_arg5 _ = _
  rw [V_main_arg5]
  refine congrArg (m ((c : Thread nD τ).loc main_arg5)) ?_
  funext a
  apply Fin.ext
  match a with
  | ⟨0, _⟩ => show win0_4.index t 0 * 128 + 1 * (x 0).val = (x 0).val; rw [e0]; omega

/-- The second-layer matrix's block is the whole argument. -/
theorem iblk5_apply (c : Dev nD) (t : Fin cfg0.N) (x : S128x4.Idx) :
    (iblk m c 5 t : Vec Ideal S128x4 .f32) x = ((m ((c : Thread nD τ).loc main_arg6)) : S128x4.Idx → EReal) x := by
  obtain ⟨-, -, -, -, -, -, -, -, -, e0, e1, -⟩ := idx_facts t
  unfold iblk
  rw [View.read_apply]
  show V m c main_arg6 _ = _
  rw [V_main_arg6]
  refine congrArg (m ((c : Thread nD τ).loc main_arg6)) ?_
  funext a
  apply Fin.ext
  match a with
  | ⟨0, _⟩ => show win0_5.index t 0 * 128 + 1 * (x 0).val = (x 0).val; rw [e0]; omega
  | ⟨1, _⟩ => show win0_5.index t 1 * 4 + 1 * (x 1).val = (x 1).val; rw [e1]; omega

/-- The second bias's block is the whole argument. -/
theorem iblk6_apply (c : Dev nD) (t : Fin cfg0.N) (x : S4.Idx) :
    (iblk m c 6 t : Vec Ideal S4 .f32) x = ((m ((c : Thread nD τ).loc main_arg7)) : S4.Idx → EReal) x := by
  obtain ⟨-, -, -, -, -, -, -, -, -, -, -, e0, -⟩ := idx_facts t
  unfold iblk
  rw [View.read_apply]
  show V m c main_arg7 _ = _
  rw [V_main_arg7]
  refine congrArg (m ((c : Thread nD τ).loc main_arg7)) ?_
  funext a
  apply Fin.ext
  match a with
  | ⟨0, _⟩ => show win0_6.index t 0 * 4 + 1 * (x 0).val = (x 0).val; rw [e0]; omega

/-! ## The blocks as the specification's arrays -/

/-- Row r of block t of the side-by-side rows is edge 8000·t + r's side-by-side row. -/
theorem rows_eq (c : Dev nD) (t : Fin cfg0.N) (r : Fin 8000) (e : Fin 1600000) (he : e.val = 8000 * t.val + r.val)
    (k : Fin 128) :
    (iblk m c 0 t : Vec Ideal S8000x128 .f32) (ix2 r k) = EdgeMlp.cat (hu m c) (hv m c) e k := by
  rw [iblk0_apply m c t (ix2 r k) (ix2 e k) he rfl, HostSide.V_main_v2]
  unfold EdgeMlp.cat
  by_cases hk : k.val < 64
  · rw [dif_pos hk]
    exact concatenate_pair_apply_left (t := S1600000x128) (s₁ := S1600000x64) (s₂ := S1600000x64) (1 : Fin 2) _ _ _ (ix2 e k) rfl
      (ix2 e (⟨k.val, hk⟩ : Fin 64))
      (fun b => by match b with | ⟨0, _⟩ => rfl | ⟨1, _⟩ => rfl)
  · rw [dif_neg hk]
    exact concatenate_pair_apply_right (t := S1600000x128) (s₁ := S1600000x64) (s₂ := S1600000x64) (1 : Fin 2) _ _ _ (ix2 e k) rfl rfl
      (ix2 e (⟨k.val - 64, by have := k.isLt; omega⟩ : Fin 64))
      (fun b hb => by
        match b, hb with
        | ⟨0, _⟩, _ => rfl
        | ⟨1, _⟩, hb => exact absurd rfl hb)
      (by show (k.val - 64) + 64 = k.val; omega)

/-- Rows 0–127 of the first-layer matrix, as the kernel's block holds them. -/
theorem w1top_eq (c : Dev nD) (t : Fin cfg0.N) (k : Fin 128) (j : Fin 128) :
    (iblk m c 2 t : Vec Ideal S128x128 .f32) (ix2 k j)
      = ((m ((c : Thread nD τ).loc main_arg4)) : S160x128.Idx → EReal) (ix2 (⟨k.val, by have := k.isLt; omega⟩ : Fin 160) j) := by
  rw [iblk2_apply, HostSide.V_main_v3]
  exact slice2_axis0_apply 0 _ _ k j _ (Nat.zero_add _).symm

/-- Rows 128–159 of the first-layer matrix, as the kernel's block holds them. -/
theorem w1bot_eq (c : Dev nD) (t : Fin cfg0.N) (k : Fin 32) (j : Fin 128) :
    (iblk m c 3 t : Vec Ideal S32x128 .f32) (ix2 k j)
      = ((m ((c : Thread nD τ).loc main_arg4)) : S160x128.Idx → EReal) (ix2 (⟨128 + k.val, by have := k.isLt; omega⟩ : Fin 160) j) := by
  rw [iblk3_apply, HostSide.V_main_v4]
  exact slice2_axis0_apply 128 _ _ k j _ rfl

/-- What point t's body stores at (r, o) is the network's output at edge 8000·t + r, column o. -/
theorem point_eq (c : Dev nD) (t : Fin cfg0.N) (y : S8000x4.Idx) (i : S1600000x4.Idx)
    (h0 : (i 0).val = 8000 * t.val + (y 0).val) (h1 : (i 1).val = (y 1).val) :
    k0_pay1 (iblk m c 0 t) (iblk m c 1 t) (iblk m c 2 t) (iblk m c 3 t) (iblk m c 4 t) (iblk m c 5 t) (iblk m c 6 t) y
      = kernelOut m c i := by
  obtain ⟨r, o, rfl⟩ : ∃ (r : Fin 8000) (o : Fin 4), y = ix2 r o := ⟨y 0, y 1, eq_ix2 y⟩
  obtain ⟨e, o', rfl⟩ : ∃ (e : Fin 1600000) (o' : Fin 4), i = ix2 e o' := ⟨i 0, i 1, eq_ix2 i⟩
  have ho : o' = o := Fin.ext h1
  subst ho
  have he : e.val = 8000 * t.val + r.val := h0
  refine (Payload.pay_apply (iblk m c 0 t) (iblk m c 1 t) (iblk m c 2 t) (iblk m c 3 t) (iblk m c 4 t) (iblk m c 5 t)
    (iblk m c 6 t) r o').trans ?_
  show _ = EdgeMlp.outCat (hu m c) (hv m c) (m ((c : Thread nD τ).loc main_arg1)) (m ((c : Thread nD τ).loc main_arg4)) (m ((c : Thread nD τ).loc main_arg5)) (m ((c : Thread nD τ).loc main_arg6)) (m ((c : Thread nD τ).loc main_arg7)) e o'
  unfold EdgeMlp.outCat Payload.hiddenBlk EdgeMlp.hiddenCat
  simp only [rows_eq m c t r e he, w1top_eq m c t, w1bot_eq m c t,
    iblk1_apply m c t (ix2 r _) (ix2 e _) he rfl, iblk4_apply m c t, iblk5_apply m c t, iblk6_apply m c t]

/-! ## What each point writes back, the cover, the array -/

/-- Reading block t of the result array: if a function P of the block's index and a function K of the array's index
    agree wherever the array's row is 8000·t plus the block's row and the columns agree, then P, written back at
    point t, is block t of K. -/
theorem blk7_read (t : Fin cfg0.N) (P : Vec Ideal S8000x4 .f32) (K : S1600000x4.Idx → EReal)
    (h : ∀ (y : S8000x4.Idx) (i : S1600000x4.Idx), (i 0).val = 8000 * t.val + (y 0).val → (i 1).val = (y 1).val →
      P y = K i) :
    (cfg0.win 7).cut (grid0.coords t) P = ((cfg0.win 7).blk t).view.read (Elt Ideal) K := by
  obtain ⟨-, -, -, -, -, -, -, -, -, -, -, -, e0, e1⟩ := idx_facts t
  funext y
  show P ((cfg0.win 7).xinj (grid0.coords t) y) = K (((cfg0.win 7).blk t).view.emb y)
  refine h _ _ ?_ ?_
  · show win0_7.index t 0 * 8000 + 1 * (y 0).val = 8000 * t.val + (y 0).val
    rw [e0]; omega
  · show win0_7.index t 1 * 4 + 1 * (y 1).val = (y 1).val
    rw [e1]; omega

/-- WHAT POINT t WRITES BACK is block t of `kernelOut`. -/
theorem flushed_eq (c : Dev nD) (t : Fin cfg0.N) :
    (dats m 0 c).flushed 7 t = ((cfg0.win 7).blk t).view.read (Elt Ideal) (kernelOut m c) := by
  rw [Value.flushed7]
  unfold out0_7
  rw [View.canon_unit_zero hz]
  simp only [View.ld_unit_zero (S := S8000x128) hz, View.ld_unit_zero (S := S8000x32) hz,
    View.ld_unit_zero (S := S128x128) hz, View.ld_unit_zero (S := S32x128) hz, View.ld_unit_zero (S := S128) hz1,
    View.ld_unit_zero (S := S128x4) hz, View.ld_unit_zero (S := S4) hz1]
  exact blk7_read t _ _ (point_eq m c t)

/-- An index of the result array is in point t's block iff each coordinate is in the block's range on its axis. -/
theorem mem_blk (t : Fin cfg0.N) (i : S1600000x4.Idx) :
    i ∈ ((cfg0.win 7).blk t).view.set ↔ ∀ a : Fin 2, win0_7.index t a * S8000x4.size a ≤ (i a).val
      ∧ (i a).val < win0_7.index t a * S8000x4.size a + S8000x4.size a := by
  show i ∈ ((View.whole main_v5).slice (win0_7.rect t)).set ↔ _
  rw [View.set_slice_whole, Rect.mem_set_unit]
  exact Iff.rfl

/-- Every index of the result array lies in the block of the point its row falls to: row i / 8000. -/
theorem cover (i : S1600000x4.Idx) :
    ∃ t : Fin cfg0.N, (cfg0.win 7).flush t = true ∧ i ∈ ((cfg0.win 7).blk t).view.set := by
  have hi0 : (i 0).val < 1600000 := (i 0).isLt
  have hi1 : (i 1).val < 4 := (i 1).isLt
  have hlt : (i 0).val / 8000 < cfg0.N := by
    show _ < grid0.N
    rw [N_0]; omega
  refine ⟨⟨(i 0).val / 8000, hlt⟩, flush0_7 _, ?_⟩
  obtain ⟨-, -, -, -, -, -, -, -, -, -, -, -, e0, e1⟩ := idx_facts ⟨(i 0).val / 8000, hlt⟩
  rw [mem_blk]
  intro a
  match a with
  | ⟨0, _⟩ =>
    show win0_7.index ⟨(i 0).val / 8000, hlt⟩ 0 * 8000 ≤ (i 0).val
      ∧ (i 0).val < win0_7.index ⟨(i 0).val / 8000, hlt⟩ 0 * 8000 + 8000
    rw [e0]
    show (i 0).val / 8000 * 8000 ≤ (i 0).val ∧ (i 0).val < (i 0).val / 8000 * 8000 + 8000
    omega
  | ⟨1, _⟩ =>
    show win0_7.index ⟨(i 0).val / 8000, hlt⟩ 1 * 4 ≤ (i 1).val
      ∧ (i 1).val < win0_7.index ⟨(i 0).val / 8000, hlt⟩ 1 * 4 + 4
    rw [e1]
    omega

/-- THE ARRAY after the run is `kernelOut`. -/
theorem final (c : Dev nD) : (dats m 0 c).arrAt 7 cfg0.N = kernelOut m c :=
  (dats m 0 c).arrAt_eq_of_cover 7 (kernelOut m c) (fun t _ => flushed_eq m c t) cover

/-- The kernel's run, read: the result array at `kernelOut`, the arguments unchanged. -/
theorem run : θ_run defs (onTc (τ := τ) (main (F := Ideal))) ⟨m, fun _ => 0, ρ⟩ fun r => ∀ c : Dev nD,
      r.2.mem ((c : Thread nD τ).loc main_v5) = kernelOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Blocks

end
-- ==== Proof.RefRun.lean ====
/-
  The reference program's run, read back: its @main as the list of its 64 host operations — the two calls of
  jnp.take and the call of the rectifier listed at their call sites over the calls' own buffers — and what the
  result buffer holds after them, as one term of the argument arrays (`refOut`).

  `take` is jnp.take along axis 0 (a negative index shifted up by the table's 50000 rows, the gathered row where the
  shifted index lies in 0 … 49999, the fill value elsewhere); `refOut` contracts the source rows with rows 0–63 of
  the first-layer matrix, the destination rows with rows 64–127, the edge features with rows 128–159, adds the
  three and the bias, rectifies, contracts with the second-layer matrix and adds its bias.
-/
import proofs.«129104_j29678224016207_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- @main's 64 operations, in order: 23 of the first jnp.take, 23 of the second, the three row blocks of the
    first-layer matrix, the first layer, the rectifier's three, the second layer. -/
abbrev ops : List (HloOp τ sig (Elt F)) :=
  [ TRef.nullary main_call0.c (constantI S_ 32 0#32),
    TRef.unary main_call0.c main_call0.v0 (broadcastInDim S1600000 ![] bcast_S_S1600000),
    TRef.binary (.of main_arg2) main_call0.v0 main_call0.v1 (cmpi .slt),
    TRef.nullary main_call0.c_0 (constantI S_ 32 50000#32),
    TRef.unary main_call0.c_0 main_call0.v2 (broadcastInDim S1600000 ![] bcast_S_S1600000),
    TRef.binary (.of main_arg2) main_call0.v2 main_call0.v3 addi,
    TRef.ternary main_call0.v1 main_call0.v3 (.of main_arg2) main_call0.call0.v0 select,
    TRef.unary main_call0.call0.v0 main_call0.v5 (broadcastInDim S1600000x1 ![0] bcast_S1600000_S1600000x1_0),
    TRef.nullary main_call0.c_1 (constantI S1 32 49999#32),
    TRef.nullary main_call0.c_2 (constantI S_ 32 0#32),
    TRef.unary main_call0.c_2 main_call0.v6 (broadcastInDim S1600000x1 ![] bcast_S_S1600000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1600000x1 ![0, 1] bcast_S1x1_S1600000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1600000x1_S1600000_d1 h_S_),
    TRef.binary (.of main_arg0) main_call0.v5 main_call0.v13 (fun x i => Host.gather gather_S50000x64_S1600000x1_S1600000x64_1_0_n_n_0_1_164 x i),
    TRef.unary main_call0.v12 main_call0.v14 (broadcastInDim S1600000x64 ![0] bcast_S1600000_S1600000x64_0),
    TRef.nullary main_call0.cst (constant S_ .f32 0x7FC00000#32),
    TRef.unary main_call0.cst main_call0.v15 (broadcastInDim S1600000x64 ![] bcast_S_S1600000x64),
    TRef.ternary main_call0.v14 main_call0.v13 main_call0.v15 main_call0.v16 select,
    TRef.nullary main_call1.c (constantI S_ 32 0#32),
    TRef.unary main_call1.c main_call1.v0 (broadcastInDim S1600000 ![] bcast_S_S1600000),
    TRef.binary (.of main_arg3) main_call1.v0 main_call1.v1 (cmpi .slt),
    TRef.nullary main_call1.c_0 (constantI S_ 32 50000#32),
    TRef.unary main_call1.c_0 main_call1.v2 (broadcastInDim S1600000 ![] bcast_S_S1600000),
    TRef.binary (.of main_arg3) main_call1.v2 main_call1.v3 addi,
    TRef.ternary main_call1.v1 main_call1.v3 (.of main_arg3) main_call1.call0.v0 select,
    TRef.unary main_call1.call0.v0 main_call1.v5 (broadcastInDim S1600000x1 ![0] bcast_S1600000_S1600000x1_0),
    TRef.nullary main_call1.c_1 (constantI S1 32 49999#32),
    TRef.nullary main_call1.c_2 (constantI S_ 32 0#32),
    TRef.unary main_call1.c_2 main_call1.v6 (broadcastInDim S1600000x1 ![] bcast_S_S1600000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S1600000x1 ![0, 1] bcast_S1x1_S1600000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1600000x1_S1600000_d1 h_S_),
    TRef.binary (.of main_arg0) main_call1.v5 main_call1.v13 (fun x i => Host.gather gather_S50000x64_S1600000x1_S1600000x64_1_0_n_n_0_1_164 x i),
    TRef.unary main_call1.v12 main_call1.v14 (broadcastInDim S1600000x64 ![0] bcast_S1600000_S1600000x64_0),
    TRef.nullary main_call1.cst (constant S_ .f32 0x7FC00000#32),
    TRef.unary main_call1.cst main_call1.v15 (broadcastInDim S1600000x64 ![] bcast_S_S1600000x64),
    TRef.ternary main_call1.v14 main_call1.v13 main_call1.v15 main_call1.v16 select,
    unary main_arg4 main_v2 ((extractStridedSlice S64x128 ![0, 0] · slices_S160x128_S64x128_0_0) : (⟨S160x128, .f32⟩ : BufTy).Contents (Elt F) → (⟨S64x128, .f32⟩ : BufTy).Contents (Elt F)),
    unary main_arg4 main_v3 ((extractStridedSlice S64x128 ![64, 0] · slices_S160x128_S64x128_64_0) : (⟨S160x128, .f32⟩ : BufTy).Contents (Elt F) → (⟨S64x128, .f32⟩ : BufTy).Contents (Elt F)),
    unary main_arg4 main_v4 ((extractStridedSlice S32x128 ![128, 0] · slices_S160x128_S32x128_128_0) : (⟨S160x128, .f32⟩ : BufTy).Contents (Elt F) → (⟨S32x128, .f32⟩ : BufTy).Contents (Elt F)),
    binary main_v0 main_v2 main_v5 ((fun l r => Host.dotGeneral dot_S1600000x64_S64x128_S1600000x128_1_0_0_1_n_n none l r) : (⟨S1600000x64, .f32⟩ : BufTy).Contents (Elt F) → (⟨S64x128, .f32⟩ : BufTy).Contents (Elt F) → (⟨S1600000x128, .f32⟩ : BufTy).Contents (Elt F)),
    binary main_v1 main_v3 main_v6 ((fun l r => Host.dotGeneral dot_S1600000x64_S64x128_S1600000x128_1_0_0_1_n_n none l r) : (⟨S1600000x64, .f32⟩ : BufTy).Contents (Elt F) → (⟨S64x128, .f32⟩ : BufTy).Contents (Elt F) → (⟨S1600000x128, .f32⟩ : BufTy).Contents (Elt F)),
    binary main_v5 main_v6 main_v7 (addf : (⟨S1600000x128, .f32⟩ : BufTy).Contents (Elt F) → (⟨S1600000x128, .f32⟩ : BufTy).Contents (Elt F) → (⟨S1600000x128, .f32⟩ : BufTy).Contents (Elt F)),
    binary main_arg1 main_v4 main_v8 ((fun l r => Host.dotGeneral dot_S1600000x32_S32x128_S1600000x128_1_0_0_1_n_n none l r) : (⟨S1600000x32, .f32⟩ : BufTy).Contents (Elt F) → (⟨S32x128, .f32⟩ : BufTy).Contents (Elt F) → (⟨S1600000x128, .f32⟩ : BufTy).Contents (Elt F)),
    binary main_v7 main_v8 main_v9 (addf : (⟨S1600000x128, .f32⟩ : BufTy).Contents (Elt F) → (⟨S1600000x128, .f32⟩ : BufTy).Contents (Elt F) → (⟨S1600000x128, .f32⟩ : BufTy).Contents (Elt F)),
    unary main_arg5 main_v10 (broadcastInDim S1x128 ![1] bcast_S128_S1x128_1 : (⟨S128, .f32⟩ : BufTy).Contents (Elt F) → (⟨S1x128, .f32⟩ : BufTy).Contents (Elt F)),
    unary main_v10 main_v11 (broadcastInDim S1600000x128 ![0, 1] bcast_S1x128_S1600000x128_0_1 : (⟨S1x128, .f32⟩ : BufTy).Contents (Elt F) → (⟨S1600000x128, .f32⟩ : BufTy).Contents (Elt F)),
    binary main_v9 main_v11 main_v12 (addf : (⟨S1600000x128, .f32⟩ : BufTy).Contents (Elt F) → (⟨S1600000x128, .f32⟩ : BufTy).Contents (Elt F) → (⟨S1600000x128, .f32⟩ : BufTy).Contents (Elt F)),
    TRef.nullary main_call2.cst (constant S_ .f32 0x00000000#32),
    TRef.unary main_call2.cst main_call2.v0 (broadcastInDim S1600000x128 ![] bcast_S_S1600000x128),
    TRef.binary (.of main_v12) main_call2.v0 main_call2.v1 maximumf,
    binary main_v13 main_arg6 main_v14 ((fun l r => Host.dotGeneral dot_S1600000x128_S128x4_S1600000x4_1_0_0_1_n_n none l r) : (⟨S1600000x128, .f32⟩ : BufTy).Contents (Elt F) → (⟨S128x4, .f32⟩ : BufTy).Contents (Elt F) → (⟨S1600000x4, .f32⟩ : BufTy).Contents (Elt F)),
    unary main_arg7 main_v15 (broadcastInDim S1x4 ![1] bcast_S4_S1x4_1 : (⟨S4, .f32⟩ : BufTy).Contents (Elt F) → (⟨S1x4, .f32⟩ : BufTy).Contents (Elt F)),
    unary main_v15 main_v16 (broadcastInDim S1600000x4 ![0, 1] bcast_S1x4_S1600000x4_0_1 : (⟨S1x4, .f32⟩ : BufTy).Contents (Elt F) → (⟨S1600000x4, .f32⟩ : BufTy).Contents (Elt F)),
    binary main_v14 main_v16 main_v17 (addf : (⟨S1600000x4, .f32⟩ : BufTy).Contents (Elt F) → (⟨S1600000x4, .f32⟩ : BufTy).Contents (Elt F) → (⟨S1600000x4, .f32⟩ : BufTy).Contents (Elt F)) ]

set_option maxRecDepth 4096 in
set_option maxHeartbeats 4000000 in
/-- @main is that straight line: the outlined functions unfolded at their calls and the calls' records at their
    fields, sequencing reassociated. -/
theorem main_eq (c : Dev nD) : main (F := F) c = seq ops := by
  simp only [main, fn_take.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The row index jnp.take uses: a negative index shifted up by the table's 50000 rows, set as a column. -/
def takeIdx (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 50000#32))) i)

/-- jnp.take of rows of the node table. -/
def take (x : FVec F S50000x64 .f32) (i : IVec S1600000 32) : FVec F S1600000x64 .f32 :=
  select
    (broadcastInDim S1600000x64 ![0] bcast_S1600000_S1600000x64_0
      (Host.reduce IntOp.andi
        (andi (cmpi .sge (takeIdx i) (broadcastInDim S1600000x1 ![] bcast_S_S1600000x1 (constantI S_ 32 0#32)))
          (cmpi .sle (takeIdx i) (broadcastInDim S1600000x1 ![0, 1] bcast_S1x1_S1600000x1_0_1
            (broadcastInDim S1x1 ![1] bcast_S1_S1x1_1 (constantI S1 32 49999#32)))))
        (constantI S_ 1 1#1) reducesTo_S1600000x1_S1600000_d1 h_S_))
    (Host.gather gather_S50000x64_S1600000x1_S1600000x64_1_0_n_n_0_1_164 x (takeIdx i))
    (broadcastInDim S1600000x64 ![] bcast_S_S1600000x64 (constant S_ .f32 0x7FC00000#32))

/-- The hidden layer after the rectifier, from the two gathered arrays. -/
def refHidden (hu hv : FVec F S1600000x64 .f32) (ef : FVec F S1600000x32 .f32) (w1 : FVec F S160x128 .f32)
    (b1 : FVec F S128 .f32) : FVec F S1600000x128 .f32 :=
  maximumf
    (addf
      (addf
        (addf
          (Host.dotGeneral dot_S1600000x64_S64x128_S1600000x128_1_0_0_1_n_n none hu
            (extractStridedSlice S64x128 ![0, 0] w1 slices_S160x128_S64x128_0_0))
          (Host.dotGeneral dot_S1600000x64_S64x128_S1600000x128_1_0_0_1_n_n none hv
            (extractStridedSlice S64x128 ![64, 0] w1 slices_S160x128_S64x128_64_0)))
        (Host.dotGeneral dot_S1600000x32_S32x128_S1600000x128_1_0_0_1_n_n none ef
          (extractStridedSlice S32x128 ![128, 0] w1 slices_S160x128_S32x128_128_0)))
      (broadcastInDim S1600000x128 ![0, 1] bcast_S1x128_S1600000x128_0_1 (broadcastInDim S1x128 ![1] bcast_S128_S1x128_1 b1)))
    (broadcastInDim S1600000x128 ![] bcast_S_S1600000x128 (constant S_ .f32 0x00000000#32))

/-- The reference's result as one term of its arguments. -/
def refOut (x : FVec F S50000x64 .f32) (ef : FVec F S1600000x32 .f32) (src dst : IVec S1600000 32)
    (w1 : FVec F S160x128 .f32) (b1 : FVec F S128 .f32) (w2 : FVec F S128x4 .f32) (b2 : FVec F S4 .f32) :
    FVec F S1600000x4 .f32 :=
  addf
    (Host.dotGeneral dot_S1600000x128_S128x4_S1600000x4_1_0_0_1_n_n none (refHidden (take x src) (take x dst) ef w1 b1) w2)
    (broadcastInDim S1600000x4 ![0, 1] bcast_S1x4_S1600000x4_0_1 (broadcastInDim S1x4 ![1] bcast_S4_S1x4_1 b2))

set_option maxHeartbeats 4000000 in
/-- What the result buffer holds after the 64 operations, over any launch contents X: `refOut` of the arguments'. -/
theorem out_eq (X : Valuation τ sig (Elt F)) :
    (after ops X (Proc.devRef .tc main_v17) : S1600000x4.Idx → F .f32)
      = refOut (X (Proc.devRef .tc main_arg0)) (X (Proc.devRef .tc main_arg1)) (X (Proc.devRef .tc main_arg2))
          (X (Proc.devRef .tc main_arg3)) (X (Proc.devRef .tc main_arg4)) (X (Proc.devRef .tc main_arg5))
          (X (Proc.devRef .tc main_arg6)) (X (Proc.devRef .tc main_arg7)) := by
  simp only [ops, TRef.nullary, TRef.unary, TRef.binary, TRef.ternary, TRef.toBuf, TRef.ofBuf, cast_eq]
  after_results_simp
  rfl

/-! No operation writes an argument's buffer. -/
theorem arg0_eq (X : Valuation τ sig (Elt F)) :
    after ops X (Proc.devRef .tc main_arg0) = X (Proc.devRef .tc main_arg0) :=
  after_of_forall_not_mem (b := Proc.devRef .tc main_arg0) _ _ (List.forall_iff_forall_mem.mp (by
    simp only [ops, List.Forall, nullary_writes, unary_writes, binary_writes, ternary_writes, Finset.mem_singleton]
    repeat' apply And.intro
    all_goals exact devRef_ne_of_ne (by decide)))
theorem arg1_eq (X : Valuation τ sig (Elt F)) :
    after ops X (Proc.devRef .tc main_arg1) = X (Proc.devRef .tc main_arg1) :=
  after_of_forall_not_mem (b := Proc.devRef .tc main_arg1) _ _ (List.forall_iff_forall_mem.mp (by
    simp only [ops, List.Forall, nullary_writes, unary_writes, binary_writes, ternary_writes, Finset.mem_singleton]
    repeat' apply And.intro
    all_goals exact devRef_ne_of_ne (by decide)))
theorem arg2_eq (X : Valuation τ sig (Elt F)) :
    after ops X (Proc.devRef .tc main_arg2) = X (Proc.devRef .tc main_arg2) :=
  after_of_forall_not_mem (b := Proc.devRef .tc main_arg2) _ _ (List.forall_iff_forall_mem.mp (by
    simp only [ops, List.Forall, nullary_writes, unary_writes, binary_writes, ternary_writes, Finset.mem_singleton]
    repeat' apply And.intro
    all_goals exact devRef_ne_of_ne (by decide)))
theorem arg3_eq (X : Valuation τ sig (Elt F)) :
    after ops X (Proc.devRef .tc main_arg3) = X (Proc.devRef .tc main_arg3) :=
  after_of_forall_not_mem (b := Proc.devRef .tc main_arg3) _ _ (List.forall_iff_forall_mem.mp (by
    simp only [ops, List.Forall, nullary_writes, unary_writes, binary_writes, ternary_writes, Finset.mem_singleton]
    repeat' apply And.intro
    all_goals exact devRef_ne_of_ne (by decide)))
theorem arg4_eq (X : Valuation τ sig (Elt F)) :
    after ops X (Proc.devRef .tc main_arg4) = X (Proc.devRef .tc main_arg4) :=
  after_of_forall_not_mem (b := Proc.devRef .tc main_arg4) _ _ (List.forall_iff_forall_mem.mp (by
    simp only [ops, List.Forall, nullary_writes, unary_writes, binary_writes, ternary_writes, Finset.mem_singleton]
    repeat' apply And.intro
    all_goals exact devRef_ne_of_ne (by decide)))
theorem arg5_eq (X : Valuation τ sig (Elt F)) :
    after ops X (Proc.devRef .tc main_arg5) = X (Proc.devRef .tc main_arg5) :=
  after_of_forall_not_mem (b := Proc.devRef .tc main_arg5) _ _ (List.forall_iff_forall_mem.mp (by
    simp only [ops, List.Forall, nullary_writes, unary_writes, binary_writes, ternary_writes, Finset.mem_singleton]
    repeat' apply And.intro
    all_goals exact devRef_ne_of_ne (by decide)))
theorem arg6_eq (X : Valuation τ sig (Elt F)) :
    after ops X (Proc.devRef .tc main_arg6) = X (Proc.devRef .tc main_arg6) :=
  after_of_forall_not_mem (b := Proc.devRef .tc main_arg6) _ _ (List.forall_iff_forall_mem.mp (by
    simp only [ops, List.Forall, nullary_writes, unary_writes, binary_writes, ternary_writes, Finset.mem_singleton]
    repeat' apply And.intro
    all_goals exact devRef_ne_of_ne (by decide)))
theorem arg7_eq (X : Valuation τ sig (Elt F)) :
    after ops X (Proc.devRef .tc main_arg7) = X (Proc.devRef .tc main_arg7) :=
  after_of_forall_not_mem (b := Proc.devRef .tc main_arg7) _ _ (List.forall_iff_forall_mem.mp (by
    simp only [ops, List.Forall, nullary_writes, unary_writes, binary_writes, ternary_writes, Finset.mem_singleton]
    repeat' apply And.intro
    all_goals exact devRef_ne_of_ne (by decide)))

/-- On every device, from any memory with zero counters: every weakly fair execution of @main terminates with the
    result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v17).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c))⟩)
    (run_seq scopedRefs_eq scopedSems_eq defs main (fun _ => ops) main_eq (fun _ => ops_sub) m ρ)

end Cert.ReferenceIdeal.RefRun

end
-- ==== Proof.LibBroadcastInDim.lean ====
/-
  `stablehlo.broadcast_in_dim` in its small keepdims forms, read at an index given by coordinates.

  A vector of length a set as the column [a, 1] (dims [0]) or as the row [1, a] (dims [1]); a column [a, 1] or a row
  [1, b] spread over [a, b] (dims [0, 1]); a scalar spread over any shape (dims []). In each the result at an index
  is the operand at the index with the broadcast axes dropped or set to zero.
-/
import Idealize.ShloMosaic.Lib.Pipeline.Value
import Idealize.ShloMosaic.Lib.ValueIdx

namespace Cert.LibBroadcastInDim

open Idealize.ShloMosaic Idealize.ShloMosaic.ValueIdx

variable {α : Type}

/-- A vector of length `a` set as the column `[a, 1]` reads, at `(p, u)`, the vector at `p`. -/
theorem vec_to_col_apply {a : ℕ} (dims : Fin 1 → Fin 2) (hd : dims 0 = 0)
    (h : (⟨1, ![a]⟩ : Shape).BroadcastsInDim ⟨2, ![a, 1]⟩ dims) (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else ((ix2 p u : (⟨2, ![a, 1]⟩ : Shape).Idx) (dims 0)).val
    rw [hd]
    show p.val = if a = 1 then 0 else p.val
    split
    · have := p.isLt; omega
    · rfl

/-- A vector of length `b` set as the row `[1, b]` reads, at `(u, q)`, the vector at `q`. -/
theorem vec_to_row_apply {b : ℕ} (dims : Fin 1 → Fin 2) (hd : dims 0 = 1)
    (h : (⟨1, ![b]⟩ : Shape).BroadcastsInDim ⟨2, ![1, b]⟩ dims) (v : (⟨1, ![b]⟩ : Shape).Idx → α) (u : Fin 1) (q : Fin b) :
    broadcastInDim ⟨2, ![1, b]⟩ dims h v (ix2 u q) = v (ix1 q) := by
  refine broadcastInDim_apply dims h v (ix2 u q) (ix1 q) fun ax => ?_
  match ax with
  | ⟨0, _⟩ =>
    show q.val = if b = 1 then 0 else ((ix2 u q : (⟨2, ![1, b]⟩ : Shape).Idx) (dims 0)).val
    rw [hd]
    show q.val = if b = 1 then 0 else q.val
    split
    · have := q.isLt; omega
    · rfl

/-- A column `[a, 1]` spread over `[a, b]` reads, at `(p, q)`, the column at `(p, 0)`. -/
theorem col_to_mat_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α) (p : Fin a) (q : Fin b) :
    broadcastInDim ⟨2, ![a, b]⟩ dims h v (ix2 p q) = v (ix2 p (0 : Fin 1)) := by
  refine broadcastInDim_apply dims h v (ix2 p q) (ix2 p (0 : Fin 1)) fun ax => ?_
  match ax with
  | ⟨0, _⟩ =>
    show p.val = if a = 1 then 0 else ((ix2 p q : (⟨2, ![a, b]⟩ : Shape).Idx) (dims 0)).val
    rw [hd0]
    show p.val = if a = 1 then 0 else p.val
    split
    · have := p.isLt; omega
    · rfl
  | ⟨1, _⟩ =>
    show 0 = if (1 : ℕ) = 1 then 0 else ((ix2 p q : (⟨2, ![a, b]⟩ : Shape).Idx) (dims 1)).val
    rw [if_pos rfl]

/-- A row `[1, b]` spread over `[a, b]` reads, at `(p, q)`, the row at `(0, q)`. -/
theorem row_to_mat_apply {a b : ℕ} (dims : Fin 2 → Fin 2) (hd0 : dims 0 = 0) (hd1 : dims 1 = 1)
    (h : (⟨2, ![1, b]⟩ : Shape).BroadcastsInDim ⟨2, ![a, b]⟩ dims) (v : (⟨2, ![1, b]⟩ : Shape).Idx → α) (p : Fin a) (q : Fin b) :
    broadcastInDim ⟨2, ![a, b]⟩ dims h v (ix2 p q) = v (ix2 (0 : Fin 1) q) := by
  refine broadcastInDim_apply dims h v (ix2 p q) (ix2 (0 : Fin 1) q) fun ax => ?_
  match ax with
  | ⟨0, _⟩ =>
    show 0 = if (1 : ℕ) = 1 then 0 else ((ix2 p q : (⟨2, ![a, b]⟩ : Shape).Idx) (dims 0)).val
    rw [if_pos rfl]
  | ⟨1, _⟩ =>
    show q.val = if b = 1 then 0 else ((ix2 p q : (⟨2, ![a, b]⟩ : Shape).Idx) (dims 1)).val
    rw [hd1]
    show q.val = if b = 1 then 0 else q.val
    split
    · have := q.isLt; omega
    · rfl

/-- A scalar spread over any shape reads, everywhere, the scalar. -/
theorem scalar_apply {t : Shape} (dims : Fin 0 → Fin t.rank) (h : (⟨0, ![]⟩ : Shape).BroadcastsInDim t dims)
    (v : (⟨0, ![]⟩ : Shape).Idx → α) (j : t.Idx) : broadcastInDim t dims h v j = v ix0 :=
  broadcastInDim_apply dims h v j ix0 fun ax => ax.elim0

end Cert.LibBroadcastInDim
-- ==== Proof.RefValue.lean ====
/-
  The reference's result, entry by entry, over the extended reals: the network's output as the specification states it.

  The host's product of an m × k by a k × n matrix at an entry is the sum over the contracted coordinate of the
  products of the entries; a row block cut from the first-layer matrix reads the matrix at the block's offset; a bias
  vector set as one row and spread down the rows reads the vector; the rectifier's zero spread over the array reads
  zero. So the run's term `refOut` at edge e, column o is `EdgeMlp.out` of the two gathered arrays there.
-/
import proofs.«129104_j29678224016207_2_alg».proof.Proof.RefRun
import proofs.«129104_j29678224016207_2_alg».proof.Proof.EdgeMlp
import proofs.«129104_j29678224016207_2_alg».proof.Proof.LibBroadcastInDim
import Idealize.ShloMosaic.Lib.StackMember
import Idealize.ShloMosaic.Lib.ValueLayout

noncomputable section

namespace Cert.ReferenceIdeal.RefValue

open Cert.ReferenceIdeal Cert.ReferenceIdeal.Gen Cert.ReferenceIdeal.RefRun
open Idealize.ShloMosaic Idealize.ShloMosaic.ValueIdx

/-- The host's product of an m × k by a k × n matrix, at entry (a, b), is the sum over the contracted coordinate of
    the products of the entries. -/
theorem hostDot_plain_apply {m k n : ℕ} {φ₁ φ₂ : FTy} (d : DotDims ⟨2, ![m, k]⟩ ⟨2, ![k, n]⟩ ⟨2, ![m, n]⟩)
    (hd : d = DotDims.plain m k n) (A : FVec Ideal ⟨2, ![m, k]⟩ φ₁) (B : FVec Ideal ⟨2, ![k, n]⟩ φ₂)
    (a : Fin m) (b : Fin n) :
    Host.dotGeneral d none A B (ix2 a b) = ∑ c : Fin k, A (ix2 a c) * B (ix2 c b) := by
  subst hd
  exact StackMember.dotGeneral_plain_apply none A B a b

/-- The three products' dimension numbers are the plain ones. -/
theorem dims1 : dot_S1600000x64_S64x128_S1600000x128_1_0_0_1_n_n = DotDims.plain 1600000 64 128 := rfl
theorem dims2 : dot_S1600000x32_S32x128_S1600000x128_1_0_0_1_n_n = DotDims.plain 1600000 32 128 := rfl
theorem dims3 : dot_S1600000x128_S128x4_S1600000x4_1_0_0_1_n_n = DotDims.plain 1600000 128 4 := rfl

/-- A bias vector of length b, set as the row [1, b] and spread over [a, b], reads at (p, q) the vector at q. -/
theorem bias_apply {a b : ℕ} (v : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 v) (ix2 p q) = v (ix1 q) := by
  rw [Cert.LibBroadcastInDim.row_to_mat_apply ![0, 1] rfl rfl, Cert.LibBroadcastInDim.vec_to_row_apply ![1] rfl]

/-- The hidden layer after the rectifier, at edge e, unit j. -/
theorem refHidden_apply (hu hv : FVec Ideal S1600000x64 .f32) (ef : FVec Ideal S1600000x32 .f32)
    (w1 : FVec Ideal S160x128 .f32) (b1 : FVec Ideal S128 .f32) (e : Fin 1600000) (j : Fin 128) :
    refHidden hu hv ef w1 b1 (ix2 e j) = max (EdgeMlp.hidden hu hv ef w1 b1 e j) EdgeMlp.zero := by
  have s0 : ∀ k : Fin 64, extractStridedSlice S64x128 ![0, 0] w1 slices_S160x128_S64x128_0_0 (ix2 k j)
      = w1 (ix2 (⟨k.val, by have := k.isLt; omega⟩ : Fin 160) j) :=
    fun k => slice2_axis0_apply 0 _ _ k j _ (Nat.zero_add _).symm
  have s1 : ∀ k : Fin 64, extractStridedSlice S64x128 ![64, 0] w1 slices_S160x128_S64x128_64_0 (ix2 k j)
      = w1 (ix2 (⟨64 + k.val, by have := k.isLt; omega⟩ : Fin 160) j) :=
    fun k => slice2_axis0_apply 64 _ _ k j _ rfl
  have s2 : ∀ k : Fin 32, extractStridedSlice S32x128 ![128, 0] w1 slices_S160x128_S32x128_128_0 (ix2 k j)
      = w1 (ix2 (⟨128 + k.val, by have := k.isLt; omega⟩ : Fin 160) j) :=
    fun k => slice2_axis0_apply 128 _ _ k j _ rfl
  unfold refHidden EdgeMlp.hidden
  rw [maximumf_apply, addf_apply, addf_apply, addf_apply, bias_apply, hostDot_plain_apply _ dims1,
    hostDot_plain_apply _ dims1, hostDot_plain_apply _ dims2, Cert.LibBroadcastInDim.scalar_apply]
  simp only [s0, s1, s2]
  rfl

/-- The reference's result is the specification's function of the two gathered arrays and the other arguments. -/
theorem refOut_eq (x : FVec Ideal S50000x64 .f32) (ef : FVec Ideal S1600000x32 .f32) (src dst : IVec S1600000 32)
    (w1 : FVec Ideal S160x128 .f32) (b1 : FVec Ideal S128 .f32) (w2 : FVec Ideal S128x4 .f32) (b2 : FVec Ideal S4 .f32) :
    refOut x ef src dst w1 b1 w2 b2 = EdgeMlp.result (take x src) (take x dst) ef w1 b1 w2 b2 := by
  funext i
  obtain ⟨e, o, rfl⟩ : ∃ (e : Fin 1600000) (o : Fin 4), i = ix2 e o := ⟨i 0, i 1, eq_ix2 i⟩
  show _ = EdgeMlp.out (take x src) (take x dst) ef w1 b1 w2 b2 e o
  unfold refOut EdgeMlp.out
  rw [addf_apply, bias_apply, hostDot_plain_apply _ dims3]
  simp only [refHidden_apply]

end Cert.ReferenceIdeal.RefValue

end
-- ==== Proof.lean ====
/-
  The edge network of a message-passing layer, kernel against reference, over the extended reals.

  Both programs gather a source row and a destination row of the node table for each of the 1,600,000 edges with the
  same jnp.take, and both then compute, for edge e and output column o,
      Σ_{j<128} max(hidden(e,j), 0)·W2(j,o) + b2(o),
      hidden(e,j) = (hu(e,·)·W1[0:64, j] + hv(e,·)·W1[64:128, j] + ef(e,·)·W1[128:160, j]) + b1(j).
  The reference contracts the three row blocks of W1 one by one. The kernel lays the two gathered rows side by side
  on the host, contracts the 128-entry row with rows 0–127 of W1 in one product, and works through the edges 8000 at a
  time on a grid of 200 points; its roundings to a shorter float format are the identity on the extended reals, and
  its products into a zero accumulator are plain sums of products. The one law that joins the two sides is that a sum
  of 128 terms is the sum of its first 64 and its last 64 — true in every commutative additive monoid, so the
  precondition that the inputs are finite is never opened.

  The modules: `EdgeMlp` states the network as one function of the arrays in both spellings and proves them equal;
  `KerPayload` reads the kernel body's stored value entry by entry; `KerHost` reads the arrays the host prepares for
  the kernel's windows; `KerBlocks` goes from what each grid point writes back to the whole result array;
  `RefRun` reads the reference's run back as one term and `RefValue` reads that term entry by entry. Nothing in the
  ideal pass's ledger: `preserves` is `True`.
-/
import proofs.«129104_j29678224016207_2_alg».proof.Defs
import proofs.«129104_j29678224016207_2_alg».proof.Proof.Gen.Kernel
import proofs.«129104_j29678224016207_2_alg».proof.Proof.Gen.Kernel.Skeleton
import proofs.«129104_j29678224016207_2_alg».proof.Proof.Gen.Kernel.Launch
import proofs.«129104_j29678224016207_2_alg».proof.Proof.Gen.Kernel.Points
import proofs.«129104_j29678224016207_2_alg».proof.Proof.Gen.Kernel.Frame
import proofs.«129104_j29678224016207_2_alg».proof.Proof.Gen.KernelIdeal
import proofs.«129104_j29678224016207_2_alg».proof.Proof.Gen.KernelIdeal.Skeleton
import proofs.«129104_j29678224016207_2_alg».proof.Proof.Gen.KernelIdeal.Launch
import proofs.«129104_j29678224016207_2_alg».proof.Proof.Gen.KernelIdeal.Points
import proofs.«129104_j29678224016207_2_alg».proof.Proof.Gen.KernelIdeal.Frame
import proofs.«129104_j29678224016207_2_alg».proof.Proof.Gen.KernelIdeal.Value
import proofs.«129104_j29678224016207_2_alg».proof.Proof.Gen.ReferenceIdeal
import proofs.«129104_j29678224016207_2_alg».proof.Proof.Gen.Pre_finite_inputs
import proofs.«129104_j29678224016207_2_alg».proof.Proof.KerBlocks
import proofs.«129104_j29678224016207_2_alg».proof.Proof.RefValue
import Idealize.ShloMosaic.Adequacy
import Idealize.ShloMosaic.Init

noncomputable section

namespace Cert.Proof

open Idealize.ShloMosaic Idealize.SL.Sem

/-- The two programs spell jnp.take with the same operations over the same shapes: one function. -/
theorem take_eq (x : FVec Ideal Cert.KernelIdeal.S50000x64 .f32) (i : IVec Cert.KernelIdeal.S1600000 32) :
    Cert.ReferenceIdeal.RefRun.take (F := Ideal) x i = Cert.KernelIdeal.HostSide.take x i := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- The kernel's result array ends at the network through the side-by-side spelling of its hidden layer, the
    reference's at the network through the three row blocks, of arguments that agree: one function. -/
theorem algebraic : Cert.algebraic_KernelIdeal_ReferenceIdeal := by
  intro m ρ m' ρ' _ hagree
  refine ⟨fun c => Cert.KernelIdeal.Blocks.kernelOut m c, Cert.KernelIdeal.Blocks.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7⟩ := hagree c
  rw [a0, a1, a2, a3, a4, a5, a6, a7, Cert.ReferenceIdeal.RefValue.refOut_eq, take_eq, take_eq]
  funext i
  obtain ⟨e, o, rfl⟩ : ∃ (e : Fin 1600000) (o : Fin 4), i = ValueIdx.ix2 e o := ⟨i 0, i 1, ValueIdx.eq_ix2 i⟩
  show Cert.EdgeMlp.out _ _ _ _ _ _ _ e o = Cert.EdgeMlp.outCat _ _ _ _ _ _ _ e o
  exact (Cert.EdgeMlp.outCat_eq _ _ _ _ _ _ _ e o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
